-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S32x128x2048 : Shape := ⟨3, ![32, 128, 2048]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S32x128x2048 : S_.BroadcastsInDim S32x128x2048 (![] : Fin 0 → Fin S32x128x2048.rank)
  reducesTo_S32x128x2048_S_d0_1_2 : S32x128x2048.ReducesTo [0, 1, 2] S_

variable [Facts]

def fn {F : FTy → Type} [FloatOps F] (main_arg0 : FVec F S32x2048x128 .f32) (main_arg1 : FVec F S32x128x2048 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x128x2048 .f32 := Host.absf main_arg1
  let main_cst_0 : FVec F S_ .f32 := constant S_ .f32 0x7F800000#32
  let main_v5 : FVec F S32x128x2048 .f32 := broadcastInDim S32x128x2048 ![] bcast_S_S32x128x2048 main_cst_0
  let main_v6 : IVec S32x128x2048 1 := cmpf .olt main_v4 main_v5
  let main_c_1 : IVec S_ 1 := constantI S_ 1 1#1
  let main_v7 : IVec S_ 1 := (fun x v => Host.reduce IntOp.andi x v reducesTo_S32x128x2048_S_d0_1_2 h_S_) main_v6 main_c_1
  let main_v8 : IVec S_ 1 := andi main_v3 main_v7
  main_v8
-- ==== Kernel.lean ====
abbrev S32x2048x128 : Shape := ⟨3, ![32, 2048, 128]⟩
abbrev S32x128x2048 : Shape := ⟨3, ![32, 128, 2048]⟩
abbrev S32x2048x2048 : Shape := ⟨3, ![32, 2048, 2048]⟩
abbrev S1x2048x128 : Shape := ⟨3, ![1, 2048, 128]⟩
abbrev S1x128x2048 : Shape := ⟨3, ![1, 128, 2048]⟩
abbrev S1x2048x2048 : Shape := ⟨3, ![1, 2048, 2048]⟩
abbrev S2048x128 : Shape := ⟨2, ![2048, 128]⟩
abbrev S128x2048 : Shape := ⟨2, ![128, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S32x2048x128, .f32⟩
  | .hbm, ⟨1, _⟩ => ⟨S32x128x2048, .f32⟩
  | .hbm, ⟨2, _⟩ => ⟨S32x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x128x2048, .f32⟩
  | .local _ .vmem, ⟨3, _⟩ => ⟨S1x128x2048, .f32⟩
  | .local _ .vmem, ⟨4, _⟩ => ⟨S1x2048x2048, .f32⟩
  | .local _ .vmem, ⟨5, _⟩ => ⟨S1x2048x2048, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  dot_S2048x128_S128x2048_S2048x2048_1_0_0_1_n_n_wf : DotDims.WF S2048x128 S128x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S32x128x2048.size a
  hwx0_1 : ∀ i : grid0.Coords, EltTy.bits .f32 = 32 ∨ (Rect.block (s := S32x128x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S32x2048x2048.size a
  hwx0_2 : ∀ i : grid0.Coords, EltTy.bits .f32 = 32 ∨ (Rect.block (s := S32x2048x2048) S1x2048x2048.size (cc0_transform_2 i) (hinb0_2 i)).WholeWords (EltTy.packing .f32)

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x128x2048 : Shape := ⟨3, ![32, 128, 2048]⟩
abbrev S32x2048x2048 : Shape := ⟨3, ![32, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x128x2048, .f32⟩
  | .hbm, ⟨2, _⟩ => ⟨S32x2048x2048, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x2048x128_S32x128x2048_S32x2048x2048_2_1_1_2_0_0_wf : DotDims.WF S32x2048x128 S32x128x2048 S32x2048x2048 [2] [1] [1] [2] [0] [0]

variable [Facts₀]

def dot_S32x2048x128_S32x128x2048_S32x2048x2048_2_1_1_2_0_0 : DotDims S32x2048x128 S32x128x2048 S32x2048x2048 where
  lhsContracting := [2]
  rhsContracting := [1]
  lhsNonContracting := [1]
  rhsNonContracting := [2]
  lhsBatch := [0]
  rhsBatch := [0]
  wf := dot_S32x2048x128_S32x128x2048_S32x2048x2048_2_1_1_2_0_0_wf

class Facts : Prop extends Facts₀ where

variable [Facts]
-- ==== Proof.BatchProduct.lean ====
/-
  The batched matrix product as ONE function of its two argument arrays, index by index.
  For a : [32, 2048, 128] and b : [32, 128, 2048] over the extended reals, entry (p, r, q) of the product
  is the sum over the 128 contraction positions k of a (p, r, k) · b (p, k, q): batch p of the result is
  the plain matrix product of batch p of a with batch p of b.
  Both programs of the certificate are shown equal to this one function. Two facts about the extended reals are
  used on the way: 0 + x = x (an accumulator that starts at zero), and that a finite sum may be re-indexed along a
  bijection of its index set (the contraction index is identified with its one coordinate). Both hold at the
  infinities too, so the finiteness of the inputs is never called on.
-/
import Idealize.ShloMosaic.PureOps.Ideal
import Idealize.ShloMosaic.Lib.ValueIdx

noncomputable section

open scoped BigOperators

namespace Cert.BatchProduct

open Idealize.ShloMosaic Idealize.ShloMosaic.ValueIdx

/-- Entry `(p, r, q)` of the batched product: row `r` of batch `p` of `a` against column `q` of batch `p` of `b`. -/
def entry (a : (⟨3, ![32, 2048, 128]⟩ : Shape).Idx → EReal) (b : (⟨3, ![32, 128, 2048]⟩ : Shape).Idx → EReal)
    (p : Fin 32) (r : Fin 2048) (q : Fin 2048) : EReal :=
  ∑ k : Fin 128, a (ix3 p r k) * b (ix3 p k q)

/-- The whole product array: at every index its entry at the index's three coordinates. -/
def prod (a : (⟨3, ![32, 2048, 128]⟩ : Shape).Idx → EReal) (b : (⟨3, ![32, 128, 2048]⟩ : Shape).Idx → EReal) :
    (⟨3, ![32, 2048, 2048]⟩ : Shape).Idx → EReal :=
  fun i => entry a b (i 0) (i 1) (i 2)

theorem prod_apply (a : (⟨3, ![32, 2048, 128]⟩ : Shape).Idx → EReal) (b : (⟨3, ![32, 128, 2048]⟩ : Shape).Idx → EReal)
    (p : Fin 32) (r : Fin 2048) (q : Fin 2048) : prod a b (ix3 p r q) = entry a b p r q := rfl

end Cert.BatchProduct

end
-- ==== Proof.ReferenceProduct.lean ====
/-
  The reference computes the batched product.
  Its one operation is a contraction with batch axis 0 on both sides, the left operand's axis 2 against the
  right operand's axis 1. Read at an output index (p, r, q) it is the sum over k of the left operand at
  (p, r, k) times the right operand at (p, k, q) — exactly the entry of `Cert.BatchProduct.prod`; what is
  shown here is only that the two spellings of those operand indices agree, coordinate by coordinate.
-/
import proofs.«167310_j71571335021246_1_alg».proof.Proof.Gen.ReferenceIdeal.Read
import proofs.«167310_j71571335021246_1_alg».proof.Proof.BatchProduct

noncomputable section

open scoped BigOperators

namespace Cert.ReferenceProduct

open Idealize.ShloMosaic Idealize.ShloMosaic.ValueIdx Cert.ReferenceIdeal Cert.ReferenceIdeal.Read

/-- The left operand's index for output index `i` and contraction position `k`: batch and row from `i`, column `k`. -/
theorem left_index (i : S32x2048x2048.Idx) (k : Fin 128) : lidx_main_v0 i k = ix3 (i 0) (i 1) k :=
  funext fun a => Fin.ext (by match a with | ⟨0, _⟩ => rfl | ⟨1, _⟩ => rfl | ⟨2, _⟩ => rfl)

/-- The right operand's index: batch from `i`, row `k`, column from `i`. -/
theorem right_index (i : S32x2048x2048.Idx) (k : Fin 128) : ridx_main_v0 i k = ix3 (i 0) k (i 2) :=
  funext fun a => Fin.ext (by match a with | ⟨0, _⟩ => rfl | ⟨1, _⟩ => rfl | ⟨2, _⟩ => rfl)

/-- The reference's result, as a function of its two arguments, is the batched product. -/
theorem result_eq (x0 : (⟨S32x2048x128, .f32⟩ : BufTy).Contents (Elt Ideal)) (x1 : (⟨S32x128x2048, .f32⟩ : BufTy).Contents (Elt Ideal)) :
    val_main_v0 (F := Ideal) x0 x1 = Cert.BatchProduct.prod x0 x1 := by
  funext i
  rw [val_main_v0_apply]
  show _ = ∑ k : Fin 128, x0 (ix3 (i 0) (i 1) k) * x1 (ix3 (i 0) k (i 2))
  exact Finset.sum_congr rfl fun k _ => by rw [left_index, right_index]; rfl

end Cert.ReferenceProduct

end
-- ==== Proof.BlockProduct.lean ====
/-
  What the kernel body computes from one pair of blocks.
  At a grid point the body holds a block x0 : [1, 2048, 128] of the first argument and a block x1 : [1, 128, 2048]
  of the second. It drops the leading unit axis of each, narrows both to bf16 (no change of value on the
  extended reals), multiplies the 2048 × 128 matrix by the 128 × 2048 matrix into an accumulator that starts
  at zero, and puts the unit axis back. So entry (0, r, q) of what it stores is the sum over the 128 contraction
  positions k of x0 (0, r, k) · x1 (0, k, q): the accumulator contributes 0 + (sum) = (sum).
-/
import proofs.«167310_j71571335021246_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.BlockProduct

open Idealize.ShloMosaic Idealize.ShloMosaic.ValueIdx Cert.KernelIdeal Cert.KernelIdeal.Gen

/-- The body's matrix product contracts the left operand's axis 1 with the right operand's axis 0; no batch axis. -/
abbrev dims : DotDims S2048x128 S128x2048 S2048x2048 := dot_S2048x128_S128x2048_S2048x2048_1_0_0_1_n_n

/-! ## The product's operand indices at an output index `j` and a contraction position `c` -/

/-- The left operand's row is the output's row. -/
theorem left_row (j : S2048x2048.Idx) (c : dims.contr.Idx) : (dims.lhsIdx j c 0).val = (j 0).val := by
  unfold DotDims.lhsIdx
  rw [dif_neg (show ¬(0 : Fin S2048x128.rank) ∈ dims.lhsBatch by decide), dif_pos (show (0 : Fin S2048x128.rank) ∈ dims.lhsNonContracting by decide)]
  rfl

/-- The left operand's column is the contraction position. -/
theorem left_col (j : S2048x2048.Idx) (c : dims.contr.Idx) : (dims.lhsIdx j c 1).val = (c ⟨0, by decide⟩).val :=
  dims.lhsIdx_val_of_single rfl j c

/-- The right operand's row is the contraction position. -/
theorem right_row (j : S2048x2048.Idx) (c : dims.contr.Idx) : (dims.rhsIdx j c 0).val = (c ⟨0, by decide⟩).val :=
  dims.rhsIdx_val_of_single rfl j c

/-- The right operand's column is the output's column. -/
theorem right_col (j : S2048x2048.Idx) (c : dims.contr.Idx) : (dims.rhsIdx j c 1).val = (j 1).val := by
  unfold DotDims.rhsIdx
  rw [dif_neg (show ¬(1 : Fin S128x2048.rank) ∈ dims.rhsBatch by decide), dif_pos (show (1 : Fin S128x2048.rank) ∈ dims.rhsNonContracting by decide)]
  rfl

/-! ## The stored value at an index -/

/-- Entry `(u, r, q)` of what the body stores is row `r` of the first block against column `q` of the second. -/
theorem stored_entry (x0 : Vec Ideal S1x2048x128 .f32) (x1 : Vec Ideal S1x128x2048 .f32) (u : Fin 1) (r : Fin 2048) (q : Fin 2048) :
    k0_pay1 (F := Ideal) x0 x1 (ix3 u r q) = ∑ k : Fin 128, x0 (ix3 (0 : Fin 1) r k) * x1 (ix3 (0 : Fin 1) k q) := by
  unfold k0_pay1
  -- the unit axis put back: the stored entry (u, r, q) is the matrix product's entry (r, q)
  refine (shapeCast_ab_1ab_apply _ _ u r q).trans ?_
  -- into the zero accumulator the product's entry is the bare sum over the contraction index
  refine (Ideal.matmul_constant_zero_apply dims none _ _ (ix2 r q)).trans ?_
  -- the contraction index has one axis of extent 128: sum over its one coordinate instead
  rw [← Equiv.sum_comp (contrEquiv1 dims 128 rfl rfl).symm]
  refine Finset.sum_congr rfl fun k _ => ?_
  have hk := contrEquiv1_symm_val dims 128 rfl rfl k
  have el : dims.lhsIdx (ix2 r q) ((contrEquiv1 dims 128 rfl rfl).symm k) = ix2 r k := funext fun a => Fin.ext (by
    match a with
    | ⟨0, _⟩ => exact left_row _ _
    | ⟨1, _⟩ => exact (left_col _ _).trans hk)
  have er : dims.rhsIdx (ix2 r q) ((contrEquiv1 dims 128 rfl rfl).symm k) = ix2 k q := funext fun a => Fin.ext (by
    match a with
    | ⟨0, _⟩ => exact (right_row _ _).trans hk
    | ⟨1, _⟩ => exact right_col _ _)
  rw [el, er]
  -- narrowing to bf16 is the identity on the extended reals; each factor is a block with its unit axis dropped
  show shapeCast S2048x128 x0 shapeCasts_S1x2048x128_S2048x128 (ix2 r k) * shapeCast S128x2048 x1 shapeCasts_S1x128x2048_S128x2048 (ix2 k q) = _
  rw [shapeCast_1ab_ab_apply, shapeCast_1ab_ab_apply]

end Cert.BlockProduct

end
-- ==== Proof.KernelProduct.lean ====
/-
  The kernel's result array is the batched product.
  The grid has 32 points, one per batch. At point t the kernel is handed batch t of each argument as a block
  with a leading unit axis ([1, 2048, 128] and [1, 128, 2048]: block index t on axis 0, index 0 on the other two
  axes), and writes back the block [1, 2048, 2048] of the result at the same batch. By `Cert.BlockProduct.stored_entry`
  entry (0, r, q) of what it writes is the sum over k of (first block) (0, r, k) · (second block) (0, k, q), and
  entry (0, r, k) of a block at batch t is entry (t, r, k) of its array; so point t writes exactly block t of the
  batched product of the two arrays. The 32 blocks cover the result array (index (p, r, q) lies in the block of
  the point whose batch is p), hence the array ends holding the product everywhere.
-/
import proofs.«167310_j71571335021246_1_alg».proof.Proof.Gen.KernelIdeal.Value
import proofs.«167310_j71571335021246_1_alg».proof.Proof.BatchProduct
import proofs.«167310_j71571335021246_1_alg».proof.Proof.BlockProduct
import Idealize.ShloMosaic.Lib.Pipeline.Value
import Idealize.ShloMosaic.Lib.ValueIdx

noncomputable section

open scoped BigOperators

namespace Cert.KernelProduct

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their blocks. -/
theorem origin : (![0, 0, 0] : Fin 3 → Nat) = fun _ => 0 := funext fun a => by fin_cases a <;> rfl

/-- The three windows' block indices, decided over the 32 grid points: the two inputs' blocks sit at the batch of the
    output's block, every block index on the two matrix axes is zero, and the batch is below 32. -/
theorem block_indices : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) < 32 :=
  (by decide +kernel : ∀ t : Fin grid0.N, _)

/-- Every batch is some grid point's. -/
theorem every_batch : ∀ p : Fin 32, ∃ t : Fin cfg0.N, win0_2.index t = ![p.val, 0, 0] :=
  (by decide +kernel : ∀ p : Fin 32, ∃ t : Fin grid0.N, win0_2.index t = ![p.val, 0, 0])

/-- What point `t` writes back is block `t` of the batched product of the two argument arrays. -/
theorem flushed_eq (c : Dev nD) (t : Fin cfg0.N) :
    (dats m 0 c).flushed 2 t
      = ((cfg0.win 2).blk t).view.read (Elt Ideal) (Cert.BatchProduct.prod (V m c main_arg0) (V m c main_arg1)) := by
  rw [Cert.KernelIdeal.Value.flushed2]
  unfold out0_2
  rw [View.canon_unit_zero origin]
  simp only [View.ld_unit_zero (S := S1x2048x128) origin, View.ld_unit_zero (S := S1x128x2048) origin]
  obtain ⟨a0, a1, a2, b0, b1, b2, o1, o2, hp⟩ := block_indices t
  funext j
  obtain ⟨u, r, q, rfl⟩ : ∃ (u : Fin 1) (r : Fin 2048) (q : Fin 2048), j = ix3 u r q := ⟨j 0, j 1, j 2, eq_ix3 j⟩
  have hu : u.val = 0 := by omega
  show k0_pay1 (F := Ideal) (iblk m c 0 t) (iblk m c 1 t) (ix3 u r q)
    = Cert.BatchProduct.prod (V m c main_arg0) (V m c main_arg1) (((cfg0.win 2).blk t).view.emb (ix3 u r q))
  refine (Cert.BlockProduct.stored_entry (iblk m c 0 t) (iblk m c 1 t) u r q).trans ?_
  -- where the stored entry lands in the result array: batch = the point's block index, row and column unchanged
  have hout : ((cfg0.win 2).blk t).view.emb (ix3 u r q) = ix3 (⟨win0_2.index t (0 : Fin 3), hp⟩ : Fin 32) r q := by
    funext a; apply Fin.ext
    match a with
    | ⟨0, _⟩ => show win0_2.index t (0 : Fin 3) * 1 + 1 * u.val = win0_2.index t (0 : Fin 3); omega
    | ⟨1, _⟩ => show win0_2.index t (1 : Fin 3) * 2048 + 1 * r.val = r.val; omega
    | ⟨2, _⟩ => show win0_2.index t (2 : Fin 3) * 2048 + 1 * q.val = q.val; omega
  rw [hout, Cert.BatchProduct.prod_apply]
  unfold Cert.BatchProduct.entry
  refine Finset.sum_congr rfl fun k _ => ?_
  -- the blocks' entries are the arrays' entries at that batch
  have hleft : ((cfg0.win 0).blk t).view.emb (ix3 (0 : Fin 1) r k) = ix3 (⟨win0_2.index t (0 : Fin 3), hp⟩ : Fin 32) r k := by
    funext a; apply Fin.ext
    match a with
    | ⟨0, _⟩ => show win0_0.index t (0 : Fin 3) * 1 + 1 * 0 = win0_2.index t (0 : Fin 3); omega
    | ⟨1, _⟩ => show win0_0.index t (1 : Fin 3) * 2048 + 1 * r.val = r.val; omega
    | ⟨2, _⟩ => show win0_0.index t (2 : Fin 3) * 128 + 1 * k.val = k.val; omega
  have hright : ((cfg0.win 1).blk t).view.emb (ix3 (0 : Fin 1) k q) = ix3 (⟨win0_2.index t (0 : Fin 3), hp⟩ : Fin 32) k q := by
    funext a; apply Fin.ext
    match a with
    | ⟨0, _⟩ => show win0_1.index t (0 : Fin 3) * 1 + 1 * 0 = win0_2.index t (0 : Fin 3); omega
    | ⟨1, _⟩ => show win0_1.index t (1 : Fin 3) * 128 + 1 * k.val = k.val; omega
    | ⟨2, _⟩ => show win0_1.index t (2 : Fin 3) * 2048 + 1 * q.val = q.val; omega
  exact congrArg₂ (fun x y : EReal => x * y) (congrArg (V m c main_arg0) hleft) (congrArg (V m c main_arg1) hright)

/-- An index of the result array is in point `t`'s block iff each coordinate is in the block's range on its axis. -/
theorem mem_block (t : Fin cfg0.N) (i : S32x2048x2048.Idx) :
    i ∈ ((cfg0.win 2).blk t).view.set ↔ ∀ a : Fin 3, win0_2.index t a * S1x2048x2048.size a ≤ (i a).val
      ∧ (i a).val < win0_2.index t a * S1x2048x2048.size a + S1x2048x2048.size a := by
  show i ∈ ((View.whole main_v0).slice (win0_2.rect t)).set ↔ _
  rw [View.set_slice_whole, Rect.mem_set_unit]
  exact Iff.rfl

/-- Every index of the result array is in the block of the point whose batch is the index's. -/
theorem covered (i : S32x2048x2048.Idx) :
    ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 2048 := (i 2).isLt
  obtain ⟨t, ht⟩ := every_batch ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 2048 ≤ (i 2).val ∧ (i 2).val < win0_2.index t (2 : Fin 3) * 2048 + 2048; omega

/-- The result array after the run is the batched product of the argument arrays. -/
theorem final (c : Dev nD) :
    (dats m 0 c).arrAt 2 cfg0.N
      = Cert.BatchProduct.prod (m ((c : Thread nD τ).loc main_arg0)) (m ((c : Thread nD τ).loc main_arg1)) :=
  (dats m 0 c).arrAt_eq_of_cover 2 _ (fun t _ => flushed_eq m c t) covered

/-- The kernel's run: every weakly fair execution terminates with the result at the batched product of the arguments,
    the arguments unchanged. -/
theorem run : θ_run defs (onTc (τ := τ) (main (F := Ideal))) ⟨m, fun _ => 0, ρ⟩ fun r => ∀ c : Dev nD,
      r.2.mem ((c : Thread nD τ).loc main_v0)
        = Cert.BatchProduct.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelProduct

end
-- ==== Proof.lean ====
/-
  A batched matrix product computed batch by batch equals the batched product computed at once.
  The kernel walks a grid of 32 points; at point t it multiplies batch t of the first argument (2048 × 128) by batch t
  of the second (128 × 2048), both narrowed to bf16 — no change of value on the extended reals — into an accumulator
  that starts at zero, and writes the 2048 × 2048 result to batch t of the output. The reference is one contraction over
  the whole arrays with the batch axis shared. Both end with entry (p, r, q) equal to the sum over k of
  a (p, r, k) · b (p, k, q) (`Cert.BatchProduct.prod`): the reference by reading its one operation at an index
  (Proof/ReferenceProduct.lean), the kernel because each point's stored block is that sum over its two blocks
  (Proof/BlockProduct.lean) and the 32 blocks tile the output (Proof/KernelProduct.lean). The two sums have the same
  terms once each contraction index is identified with its one coordinate; beyond that re-indexing only 0 + x = x is
  used, and both hold at the infinities, so the finiteness of the inputs is not needed.
  The three frame claims are the programs' runs with the results forgotten; the idealization rewrote no operation, so
  `preserves` has nothing to state.
-/
import proofs.«167310_j71571335021246_1_alg».proof.Defs
import proofs.«167310_j71571335021246_1_alg».proof.Proof.Gen.Kernel
import proofs.«167310_j71571335021246_1_alg».proof.Proof.Gen.Kernel.Frame
import proofs.«167310_j71571335021246_1_alg».proof.Proof.Gen.KernelIdeal
import proofs.«167310_j71571335021246_1_alg».proof.Proof.Gen.KernelIdeal.Frame
import proofs.«167310_j71571335021246_1_alg».proof.Proof.Gen.KernelIdeal.Value
import proofs.«167310_j71571335021246_1_alg».proof.Proof.Gen.ReferenceIdeal
import proofs.«167310_j71571335021246_1_alg».proof.Proof.Gen.ReferenceIdeal.Run
import proofs.«167310_j71571335021246_1_alg».proof.Proof.Gen.ReferenceIdeal.Read
import proofs.«167310_j71571335021246_1_alg».proof.Proof.Gen.Pre_finite_inputs
import proofs.«167310_j71571335021246_1_alg».proof.Proof.BatchProduct
import proofs.«167310_j71571335021246_1_alg».proof.Proof.ReferenceProduct
import proofs.«167310_j71571335021246_1_alg».proof.Proof.KernelProduct
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the batched product of those arguments. -/
theorem algebraic : Cert.algebraic_KernelIdeal_ReferenceIdeal := by
  intro m ρ m' ρ' _ hagree
  refine ⟨fun c => Cert.BatchProduct.prod (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceProduct.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
